-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S262144 .f32
  ∧ IdealRules.sign_bit.Statement Cert.KernelIdeal.S262144 .f32
  ∧ IdealRules.sign_bit.Statement Cert.KernelIdeal.S262144 .f32
  ∧ IdealRules.sign_bit.Statement Cert.KernelIdeal.S262144 .f32
  ∧ IdealRules.sign_bit.Statement Cert.KernelIdeal.S262144 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4194304x2 : Shape := ⟨2, ![4194304, 2]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S4194304x2 : S_.BroadcastsInDim S4194304x2 (![] : Fin 0 → Fin S4194304x2.rank)
  reducesTo_S4194304x2_S_d0_1 : S4194304x2.ReducesTo [0, 1] S_

variable [Facts]

def fn {F : FTy → Type} [FloatOps F] (main_arg0 : FVec F S4194304 .f32) (main_arg1 : FVec F S4194304x2 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304x2 .f32 := Host.absf main_arg1
  let main_cst_0 : FVec F S_ .f32 := constant S_ .f32 0x7F800000#32
  let main_v5 : FVec F S4194304x2 .f32 := broadcastInDim S4194304x2 ![] bcast_S_S4194304x2 main_cst_0
  let main_v6 : IVec S4194304x2 1 := cmpf .olt main_v4 main_v5
  let main_c_1 : IVec S_ 1 := constantI S_ 1 1#1
  let main_v7 : IVec S_ 1 := (fun x v => Host.reduce IntOp.andi x v reducesTo_S4194304x2_S_d0_1 h_S_) main_v6 main_c_1
  let main_v8 : IVec S_ 1 := andi main_v3 main_v7
  main_v8
-- ==== Kernel.lean ====
abbrev S4194304 : Shape := ⟨1, ![4194304]⟩
abbrev S4194304x2 : Shape := ⟨2, ![4194304, 2]⟩
abbrev S262144 : Shape := ⟨1, ![262144]⟩
abbrev S262144x2 : Shape := ⟨2, ![262144, 2]⟩
abbrev S262144x1 : Shape := ⟨2, ![262144, 1]⟩

abbrev nBuf : Space → Nat
  | .hbm => 3
  | .vmem => 6
  | .smem => 0
  | _ => 0

abbrev bufTy : (tb : Table) → Fin (tcTables nBuf tb) → BufTy
  | .hbm, ⟨0, _⟩ => ⟨S4194304, .f32⟩
  | .hbm, ⟨1, _⟩ => ⟨S4194304x2, .f32⟩
  | .hbm, ⟨2, _⟩ => ⟨S4194304x2, .f32⟩
  | .local _ .vmem, ⟨0, _⟩ => ⟨S262144, .f32⟩
  | .local _ .vmem, ⟨1, _⟩ => ⟨S262144, .f32⟩
  | .local _ .vmem, ⟨2, _⟩ => ⟨S262144x2, .f32⟩
  | .local _ .vmem, ⟨3, _⟩ => ⟨S262144x2, .f32⟩
  | .local _ .vmem, ⟨4, _⟩ => ⟨S262144x2, .f32⟩
  | .local _ .vmem, ⟨5, _⟩ => ⟨S262144x2, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S262144_S262144_0 : ∀ a, (![0] : Fin 1 → Nat) a + S262144.size a ≤ S262144.size a
  h_S262144 : 0 < S262144.numel
  inb_S262144x2_S262144x2_0_0 : ∀ a, (![0, 0] : Fin 2 → Nat) a + S262144x2.size a ≤ S262144x2.size a
  h_S262144x2 : 0 < S262144x2.numel
  slices_S262144x2_o0_1_S262144x1 : S262144x2.Slices ![0, 1] S262144x1
  shapeCasts_S262144x1_S262144 : S262144x1.ShapeCasts S262144
  shapeCasts_S262144_S262144x1 : S262144.ShapeCasts S262144x1
  concatenates_S262144x1_S262144x1_S262144x2_d1 : Shape.Concatenates [S262144x1, S262144x1] S262144x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S4194304.size a
  hwx0_0 : ∀ i : grid0.Coords, EltTy.bits .f32 = 32 ∨ (Rect.block (s := S4194304) S262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x2.size a ≤ S4194304x2.size a
  hwx0_1 : ∀ i : grid0.Coords, EltTy.bits .f32 = 32 ∨ (Rect.block (s := S4194304x2) S262144x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144x2.size a ≤ S4194304x2.size a
  hwx0_2 : ∀ i : grid0.Coords, EltTy.bits .f32 = 32 ∨ (Rect.block (s := S4194304x2) S262144x2.size (cc0_transform_2 i) (hinb0_2 i)).WholeWords (EltTy.packing .f32)

variable [Facts₀]

abbrev win0_0 : Pipeline.Window sig grid0 :=
  Pipeline.Window.ofSpec (Memref.whole main_arg0) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S262144x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304 : Shape := ⟨1, ![4194304]⟩
abbrev S4194304x2 : Shape := ⟨2, ![4194304, 2]⟩
abbrev S4194304x1 : Shape := ⟨2, ![4194304, 1]⟩
abbrev S_ : Shape := ⟨0, ![]⟩

abbrev nBuf : Space → Nat
  | .hbm => 142
  | .vmem => 0
  | .smem => 0
  | _ => 0

abbrev hbmTy0_0 (i : Nat) : BufTy := match i % 128 with
  | 0 => ⟨S4194304, .f32⟩
  | 1 => ⟨S4194304x2, .f32⟩
  | 2 => ⟨S4194304x1, .f32⟩
  | 3 => ⟨S4194304, .f32⟩
  | 4 => ⟨S_, .f32⟩
  | 5 => ⟨S4194304, .f32⟩
  | 6 => ⟨S4194304, .f32⟩
  | 7 => ⟨S4194304, .f32⟩
  | 8 => ⟨S4194304, .f32⟩
  | 9 => ⟨S_, .f32⟩
  | 10 => ⟨S4194304, .f32⟩
  | 11 => ⟨S4194304, .f32⟩
  | 12 => ⟨S4194304, .f32⟩
  | 13 => ⟨S_, .f32⟩
  | 14 => ⟨S4194304, .f32⟩
  | 15 => ⟨S4194304, .f32⟩
  | 16 => ⟨S_, .f32⟩
  | 17 => ⟨S4194304, .f32⟩
  | 18 => ⟨S4194304, .f32⟩
  | 19 => ⟨S4194304x1, .f32⟩
  | 20 => ⟨S4194304x1, .f32⟩
  | 21 => ⟨S4194304x2, .f32⟩
  | 22 => ⟨S_, .f32⟩
  | 23 => ⟨S4194304x2, .f32⟩
  | 24 => ⟨S4194304x2, .f32⟩
  | 25 => ⟨S_, .f32⟩
  | 26 => ⟨S4194304x2, .f32⟩
  | 27 => ⟨S4194304x2, .f32⟩
  | 28 => ⟨S4194304x2, .f32⟩
  | 29 => ⟨S4194304x1, .f32⟩
  | 30 => ⟨S4194304, .f32⟩
  | 31 => ⟨S_, .f32⟩
  | 32 => ⟨S4194304, .f32⟩
  | 33 => ⟨S4194304, .f32⟩
  | 34 => ⟨S4194304, .f32⟩
  | 35 => ⟨S4194304, .f32⟩
  | 36 => ⟨S_, .f32⟩
  | 37 => ⟨S4194304, .f32⟩
  | 38 => ⟨S4194304, .f32⟩
  | 39 => ⟨S4194304, .f32⟩
  | 40 => ⟨S_, .f32⟩
  | 41 => ⟨S4194304, .f32⟩
  | 42 => ⟨S4194304, .f32⟩
  | 43 => ⟨S_, .f32⟩
  | 44 => ⟨S4194304, .f32⟩
  | 45 => ⟨S4194304, .f32⟩
  | 46 => ⟨S4194304x1, .f32⟩
  | 47 => ⟨S4194304x1, .f32⟩
  | 48 => ⟨S4194304x2, .f32⟩
  | 49 => ⟨S_, .f32⟩
  | 50 => ⟨S4194304x2, .f32⟩
  | 51 => ⟨S4194304x2, .f32⟩
  | 52 => ⟨S_, .f32⟩
  | 53 => ⟨S4194304x2, .f32⟩
  | 54 => ⟨S4194304x2, .f32⟩
  | 55 => ⟨S4194304x2, .f32⟩
  | 56 => ⟨S4194304x1, .f32⟩
  | 57 => ⟨S4194304, .f32⟩
  | 58 => ⟨S_, .f32⟩
  | 59 => ⟨S4194304, .f32⟩
  | 60 => ⟨S4194304, .f32⟩
  | 61 => ⟨S4194304, .f32⟩
  | 62 => ⟨S4194304, .f32⟩
  | 63 => ⟨S_, .f32⟩
  | 64 => ⟨S4194304, .f32⟩
  | 65 => ⟨S4194304, .f32⟩
  | 66 => ⟨S4194304, .f32⟩
  | 67 => ⟨S_, .f32⟩
  | 68 => ⟨S4194304, .f32⟩
  | 69 => ⟨S4194304, .f32⟩
  | 70 => ⟨S_, .f32⟩
  | 71 => ⟨S4194304, .f32⟩
  | 72 => ⟨S4194304, .f32⟩
  | 73 => ⟨S4194304x1, .f32⟩
  | 74 => ⟨S4194304x1, .f32⟩
  | 75 => ⟨S4194304x2, .f32⟩
  | 76 => ⟨S_, .f32⟩
  | 77 => ⟨S4194304x2, .f32⟩
  | 78 => ⟨S4194304x2, .f32⟩
  | 79 => ⟨S_, .f32⟩
  | 80 => ⟨S4194304x2, .f32⟩
  | 81 => ⟨S4194304x2, .f32⟩
  | 82 => ⟨S4194304x2, .f32⟩
  | 83 => ⟨S4194304x1, .f32⟩
  | 84 => ⟨S4194304, .f32⟩
  | 85 => ⟨S_, .f32⟩
  | 86 => ⟨S4194304, .f32⟩
  | 87 => ⟨S4194304, .f32⟩
  | 88 => ⟨S4194304, .f32⟩
  | 89 => ⟨S4194304, .f32⟩
  | 90 => ⟨S_, .f32⟩
  | 91 => ⟨S4194304, .f32⟩
  | 92 => ⟨S4194304, .f32⟩
  | 93 => ⟨S4194304, .f32⟩
  | 94 => ⟨S_, .f32⟩
  | 95 => ⟨S4194304, .f32⟩
  | 96 => ⟨S4194304, .f32⟩
  | 97 => ⟨S_, .f32⟩
  | 98 => ⟨S4194304, .f32⟩
  | 99 => ⟨S4194304, .f32⟩
  | 100 => ⟨S4194304x1, .f32⟩
  | 101 => ⟨S4194304x1, .f32⟩
  | 102 => ⟨S4194304x2, .f32⟩
  | 103 => ⟨S_, .f32⟩
  | 104 => ⟨S4194304x2, .f32⟩
  | 105 => ⟨S4194304x2, .f32⟩
  | 106 => ⟨S_, .f32⟩
  | 107 => ⟨S4194304x2, .f32⟩
  | 108 => ⟨S4194304x2, .f32⟩
  | 109 => ⟨S4194304x2, .f32⟩
  | 110 => ⟨S4194304x1, .f32⟩
  | 111 => ⟨S4194304, .f32⟩
  | 112 => ⟨S_, .f32⟩
  | 113 => ⟨S4194304, .f32⟩
  | 114 => ⟨S4194304, .f32⟩
  | 115 => ⟨S4194304, .f32⟩
  | 116 => ⟨S4194304, .f32⟩
  | 117 => ⟨S_, .f32⟩
  | 118 => ⟨S4194304, .f32⟩
  | 119 => ⟨S4194304, .f32⟩
  | 120 => ⟨S4194304, .f32⟩
  | 121 => ⟨S_, .f32⟩
  | 122 => ⟨S4194304, .f32⟩
  | 123 => ⟨S4194304, .f32⟩
  | 124 => ⟨S_, .f32⟩
  | 125 => ⟨S4194304, .f32⟩
  | 126 => ⟨S4194304, .f32⟩
  | 127 => ⟨S4194304x1, .f32⟩
  | _ => ⟨S4194304, .f32⟩

abbrev hbmTy0_1 (i : Nat) : BufTy := match i % 128 with
  | 0 => ⟨S4194304x1, .f32⟩
  | 1 => ⟨S4194304x2, .f32⟩
  | 2 => ⟨S_, .f32⟩
  | 3 => ⟨S4194304x2, .f32⟩
  | 4 => ⟨S4194304x2, .f32⟩
  | 5 => ⟨S4194304x2, .f32⟩
  | 6 => ⟨S_, .f32⟩
  | 7 => ⟨S4194304x2, .f32⟩
  | 8 => ⟨S4194304x2, .f32⟩
  | 9 => ⟨S4194304x2, .f32⟩
  | 10 => ⟨S4194304x2, .f32⟩
  | 11 => ⟨S_, .f32⟩
  | 12 => ⟨S4194304x2, .f32⟩
  | 13 => ⟨S4194304x2, .f32⟩
  | _ => ⟨S4194304, .f32⟩

abbrev hbmTy (i : Nat) : BufTy := match i / 128 with
  | 0 => hbmTy0_0 i
  | 1 => hbmTy0_1 i
  | _ => ⟨S4194304, .f32⟩

abbrev bufTy : (tb : Table) → Fin (tcTables nBuf tb) → BufTy
  | .hbm, ⟨i, _⟩ => hbmTy i
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_11 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_13 : Ref sig .tc := ⟨.hbm, 67, rfl⟩
abbrev main_v51 : Ref sig .tc := ⟨.hbm, 68, rfl⟩
abbrev main_v52 : Ref sig .tc := ⟨.hbm, 69, rfl⟩
abbrev main_cst_14 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_15 : Ref sig .tc := ⟨.hbm, 76, rfl⟩
abbrev main_v58 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_17 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_18 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_19 : Ref sig .tc := ⟨.hbm, 94, rfl⟩
abbrev main_v72 : Ref sig .tc := ⟨.hbm, 95, rfl⟩
abbrev main_v73 : Ref sig .tc := ⟨.hbm, 96, rfl⟩
abbrev main_cst_20 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_21 : Ref sig .tc := ⟨.hbm, 103, rfl⟩
abbrev main_v79 : Ref sig .tc := ⟨.hbm, 104, rfl⟩
abbrev main_v80 : Ref sig .tc := ⟨.hbm, 105, rfl⟩
abbrev main_cst_22 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_23 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_24 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_25 : Ref sig .tc := ⟨.hbm, 121, rfl⟩
abbrev main_v93 : Ref sig .tc := ⟨.hbm, 122, rfl⟩
abbrev main_v94 : Ref sig .tc := ⟨.hbm, 123, rfl⟩
abbrev main_cst_26 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_27 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_28 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_29 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  slices_S4194304x2_S4194304x1_0_1 : S4194304x2.Slices ![0, 1] S4194304x1
  shapeCasts_S4194304x1_S4194304 : S4194304x1.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S_S4194304x2 : S_.BroadcastsInDim S4194304x2 (![] : Fin 0 → Fin S4194304x2.rank)

variable [Facts₀]

class Facts : Prop extends Facts₀ where

variable [Facts]
-- ==== Proof.Spec.lean ====
/-
  One step of the integrator, for one instance, on the extended reals.

  An instance has an input `u` and a state `(position, velocity)`; only the velocity `v` enters. The slope
  function sends `(u, y)` to `(y₁, acc u y₁)` with the acceleration of a mass under viscous and Coulomb friction
      acc u x = (u − F_v · x − F_c · sign x + offset) / M.
  The step evaluates the slope at the state moved along the INITIAL slope by `a · dt`, for `a = 0, ½, ½, 1`,
  and returns `(dt / 6) · (k₁ + 2 k₂ + 2 k₃ + k₄)`. Only the second component of the moved state is ever read,
  and it is `v + (a · acc u v) · dt`.

  Every constant is the extended real its 32-bit pattern denotes; the same patterns stand on both sides of the
  comparison, so none is ever evaluated. The operations are written in the order and grouping both programs
  use, so that each program's result is this function by unfolding alone.
-/
import Idealize.ShloMosaic.PureOps.Ideal
import Idealize.ShloMosaic.Lib.ValueIdx

noncomputable section

namespace Cert.Integrator

open Idealize.ShloMosaic Idealize.ShloMosaic.ValueIdx

/-- The three shapes at `a` instances: a vector `[a]`, a column `[a, 1]`, and the two-column array `[a, 2]`. -/
abbrev SV (a : ℕ) : Shape := ⟨1, ![a]⟩
abbrev SC (a : ℕ) : Shape := ⟨2, ![a, 1]⟩
abbrev SM (a : ℕ) : Shape := ⟨2, ![a, 2]⟩

/-- The viscous friction coefficient `F_v`. -/
abbrev cFv : EReal := Ideal.ofBits .f32 0x4356ED15#32
/-- The Coulomb friction coefficient `F_c`. -/
abbrev cFc : EReal := Ideal.ofBits .f32 0x419AE2B7#32
/-- The constant offset force. -/
abbrev cOff : EReal := Ideal.ofBits .f32 0x405292A3#32
/-- The mass `M`. -/
abbrev cM : EReal := Ideal.ofBits .f32 0x42BEE666#32
/-- The time step `dt`. -/
abbrev cDt : EReal := Ideal.ofBits .f32 0x3BA3D70A#32
/-- The stage coefficients `0`, `½`, `1`, the weight `2`, and the factor `dt / 6`. -/
abbrev cZero : EReal := Ideal.ofBits .f32 0x00000000#32
abbrev cHalf : EReal := Ideal.ofBits .f32 0x3F000000#32
abbrev cOne : EReal := Ideal.ofBits .f32 0x3F800000#32
abbrev cTwo : EReal := Ideal.ofBits .f32 0x40000000#32
abbrev cSixth : EReal := Ideal.ofBits .f32 0x3A5A740E#32

/-- The acceleration at input `u` and velocity `x`. -/
def acc (u x : EReal) : EReal := Ideal.div (((u - cFv * x) - cFc * Ideal.sign x) + cOff) cM

/-- The velocity moved along the initial slope by `a · dt`. -/
def moved (a u v : EReal) : EReal := v + (a * acc u v) * cDt

/-- The slope at the moved state: component `0` the moved velocity, component `1` the acceleration there. -/
def slope (a u v : EReal) (j : Fin 2) : EReal := if j = 0 then moved a u v else acc u (moved a u v)

/-- The step's result for one instance, component `j`. -/
def step (u v : EReal) (j : Fin 2) : EReal :=
  cSixth * (((slope cZero u v j + cTwo * slope cHalf u v j) + cTwo * slope cHalf u v j) + slope cOne u v j)

/-- The step over `a` instances at once: row `r` of the result is the step of input `r` and of the velocity
    in row `r`, column `1` of the states. -/
def stepRows {a : ℕ} (inputs : (SV a).Idx → EReal) (states : (SM a).Idx → EReal) : (SM a).Idx → EReal :=
  fun i => step (inputs (ix1 (i 0 : Fin a))) (states (ix2 (i 0 : Fin a) (1 : Fin 2))) (i 1 : Fin 2)

theorem stepRows_apply {a : ℕ} (inputs : (SV a).Idx → EReal) (states : (SM a).Idx → EReal)
    (r : Fin a) (j : Fin 2) : stepRows inputs states (ix2 r j) = step (inputs (ix1 r)) (states (ix2 r (1 : Fin 2))) j := rfl

end Cert.Integrator

end
-- ==== Proof.LibColumns.lean ====
/-
  The columns of a two-column array, read at coordinates: the second column cut out of `[a, 2]`, a column
  `[a, 1]` flattened to a vector `[a]` (and the two together: the second column as a vector), a vector laid
  out as a column by a broadcast along the rows, and two columns joined side by side into `[a, 2]`. Each lemma names the operand's index by coordinates, so that it
  applies by unification at any literal length `a`.
-/
import Idealize.ShloMosaic.Lib.Pipeline.Value
import Idealize.ShloMosaic.Lib.ValueIdx

namespace Cert.LibColumns

open Idealize.ShloMosaic Idealize.ShloMosaic.ValueIdx

variable {α : Type}

/-- The second column of an `[a, 2]` array cut out as an `[a, 1]` column (offsets `(0, 1)`, unit strides):
    at `(i, u)` it is the array at `(i, 1)`, the unit coordinate `u` being zero. -/
theorem slice_col1_apply {a : ℕ} (x : (⟨2, ![a, 2]⟩ : Shape).Idx → α)
    (h : (⟨2, ![a, 2]⟩ : Shape).Slices ![0, 1] ⟨2, ![a, 1]⟩) (i : Fin a) (u : Fin 1) :
    extractStridedSlice ⟨2, ![a, 1]⟩ ![0, 1] x h (ix2 i u) = x (ix2 i (1 : Fin 2)) :=
  extractStridedSlice_apply ![0, 1] x h (ix2 i u) (ix2 i (1 : Fin 2)) fun ax => by
    match ax with
    | ⟨0, _⟩ => show i.val = 0 + i.val; omega
    | ⟨1, _⟩ => show 1 = 1 + u.val; omega

/-- A column `[a, 1]` flattened to a vector `[a]` reads, at `i`, the column's entry of row `i`: the row-major
    position of `(i, 0)` is `i · 1 + 0 = i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The second column of an `[a, 2]` array as a vector `[a]`: cut out as a column, then flattened. -/
def secondColumn {a : ℕ} (hs : (⟨2, ![a, 2]⟩ : Shape).Slices ![0, 1] ⟨2, ![a, 1]⟩)
    (hc : (⟨2, ![a, 1]⟩ : Shape).ShapeCasts ⟨1, ![a]⟩) (y : (⟨2, ![a, 2]⟩ : Shape).Idx → α) :
    (⟨1, ![a]⟩ : Shape).Idx → α :=
  shapeCast ⟨1, ![a]⟩ (extractStridedSlice ⟨2, ![a, 1]⟩ ![0, 1] y hs) hc

/-- It reads, at `i`, the array at `(i, 1)`. -/
theorem secondColumn_apply {a : ℕ} (hs : (⟨2, ![a, 2]⟩ : Shape).Slices ![0, 1] ⟨2, ![a, 1]⟩)
    (hc : (⟨2, ![a, 1]⟩ : Shape).ShapeCasts ⟨1, ![a]⟩) (y : (⟨2, ![a, 2]⟩ : Shape).Idx → α) (i : Fin a) :
    secondColumn hs hc y (ix1 i) = y (ix2 i (1 : Fin 2)) :=
  (shapeCast_a1_a_apply _ hc i).trans (slice_col1_apply y hs i 0)

/-- A vector `[a]` laid out as a column `[a, 1]` by a broadcast that sends its one axis to the rows reads,
    at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun ax => by
    match ax with
    | ⟨0, _⟩ =>
      show i.val = if a = 1 then 0 else i.val
      split
      · have := i.isLt; omega
      · rfl

/-- Two columns `[a, 1]` joined along the second axis into `[a, 2]`: at `(i, j)` the first column's entry of
    row `i` when `j = 0`, the second column's when `j = 1`. -/
theorem concat_cols_apply {a : ℕ} (x y : (⟨2, ![a, 1]⟩ : Shape).Idx → α)
    (h : Shape.Concatenates [(⟨2, ![a, 1]⟩ : Shape), ⟨2, ![a, 1]⟩] ⟨2, ![a, 2]⟩ 1) (i : Fin a) (j : Fin 2) :
    concatenate ⟨2, ![a, 2]⟩ 1 [⟨⟨2, ![a, 1]⟩, x⟩, ⟨⟨2, ![a, 1]⟩, y⟩] h (ix2 i j)
      = if j = 0 then x (ix2 i (0 : Fin 1)) else y (ix2 i (0 : Fin 1)) := by
  match j with
  | ⟨0, _⟩ =>
    refine Eq.trans ?_ (if_pos rfl).symm
    exact concatenate_pair_apply_left 1 x y h _ rfl _ fun b => by
      match b with
      | ⟨0, _⟩ => rfl
      | ⟨1, _⟩ => rfl
  | ⟨1, _⟩ =>
    refine Eq.trans ?_ (if_neg (Fin.ne_of_val_ne Nat.one_ne_zero)).symm
    exact concatenate_pair_apply_right 1 x y h _ rfl rfl _ (fun b hb => by
      match b with
      | ⟨0, _⟩ => rfl
      | ⟨1, _⟩ => exact absurd rfl hb) rfl

end Cert.LibColumns
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KernelForm.lean ====
/-
  The kernel body's arithmetic as five whole-vector functions over `a` instances, each read at a row.

  The body handles a block of `a` instances at once: the inputs as a vector `[a]`, the states as `[a, 2]`.
  It takes the velocity column of a two-column array as a vector (`secondColumn`); computes the
  acceleration of a velocity vector, with `sign x` spelt as the selection "`±1` by `x < 0` where `|x| > 0`,
  `x` itself elsewhere" (`kAcc`); joins a velocity and its acceleration as the two columns of a slope
  (`kSlope`); moves the states along a slope by `c · dt` and takes the velocity column (`kMoved`); and
  combines four slopes with the weights `1, 2, 2, 1` and the factor `dt / 6` (`kCombine`). At a row each is
  the corresponding scalar function of `Spec`; the one law used is that the selection IS the sign, on every
  extended real (at zero the selection returns its argument, which is zero).
-/
import Idealize.ShloMosaic.PureOps.Ideal.Laws
import Idealize.ShloMosaic.Lib.Pipeline.Value
import Idealize.ShloMosaic.Lib.ValueIdx
import proofs.«133290_j15599321219533_1_alg».proof.Proof.Spec
import proofs.«133290_j15599321219533_1_alg».proof.Proof.LibColumns
import proofs.«133290_j15599321219533_1_alg».proof.Proof.LibLayout

noncomputable section

namespace Cert.Integrator

open Idealize.ShloMosaic Idealize.ShloMosaic.ValueIdx
open Cert.LibColumns (secondColumn secondColumn_apply)

variable {a : ℕ}

/-- The sign of each entry, as the body spells it: where `|x| > 0`, `-1` or `1` by `x < 0`; elsewhere `x`. -/
def kSign (w : FVec Ideal (SV a) .f32) : FVec Ideal (SV a) .f32 :=
  select (cmpf .ogt (absf w) (broadcast (SV a) (Scalar.ofBits .f32 0x00000000#32)))
    (select (cmpf .olt w (constant (SV a) .f32 0x00000000#32)) (constant (SV a) .f32 0xBF800000#32)
      (constant (SV a) .f32 0x3F800000#32)) w

theorem kSign_apply (w : FVec Ideal (SV a) .f32) (i : (SV a).Idx) : kSign w i = Ideal.sign (w i) :=
  Ideal.jnp_sign_eq_sign_f32 (w i)

/-- The acceleration of each instance, from the inputs `u` and the velocities `w`. -/
def kAcc (u w : FVec Ideal (SV a) .f32) : FVec Ideal (SV a) .f32 :=
  divf (addf (subf (subf u (mulf (broadcast (SV a) (Scalar.ofBits .f32 0x4356ED15#32)) w))
        (mulf (broadcast (SV a) (Scalar.ofBits .f32 0x419AE2B7#32)) (kSign w)))
      (broadcast (SV a) (Scalar.ofBits .f32 0x405292A3#32)))
    (broadcast (SV a) (Scalar.ofBits .f32 0x42BEE666#32))

theorem kAcc_apply (u w : FVec Ideal (SV a) .f32) (i : (SV a).Idx) : kAcc u w i = acc (u i) (w i) := by
  show Ideal.div (((u i - cFv * w i) - cFc * kSign w i) + cOff) cM = _
  rw [kSign_apply]
  rfl

/-- A slope: the velocities `w` and their accelerations, side by side. -/
def kSlope (hv : (SV a).ShapeCasts (SC a)) (hcat : Shape.Concatenates [SC a, SC a] (SM a) 1)
    (u w : FVec Ideal (SV a) .f32) : FVec Ideal (SM a) .f32 :=
  concatenate (SM a) 1 [⟨SC a, shapeCast (SC a) w hv⟩, ⟨SC a, shapeCast (SC a) (kAcc u w) hv⟩] hcat

theorem kSlope_apply (hv : (SV a).ShapeCasts (SC a)) (hcat : Shape.Concatenates [SC a, SC a] (SM a) 1)
    (u w : FVec Ideal (SV a) .f32) (r : Fin a) (j : Fin 2) :
    kSlope hv hcat u w (ix2 r j) = if j = 0 then w (ix1 r) else acc (u (ix1 r)) (w (ix1 r)) := by
  refine (LibColumns.concat_cols_apply _ _ hcat r j).trans ?_
  rw [LibLayout.shapeCast_a_a1_apply w hv r 0, LibLayout.shapeCast_a_a1_apply (kAcc u w) hv r 0, kAcc_apply]

/-- The states moved along the slope `y` by `c · dt`, velocity column. -/
def kMoved (hs : (SM a).Slices ![0, 1] (SC a)) (hc : (SC a).ShapeCasts (SV a)) (c : Ideal .f32)
    (x1 y : FVec Ideal (SM a) .f32) : FVec Ideal (SV a) .f32 :=
  secondColumn hs hc (addf x1 (mulf (mulf (broadcast (SM a) c) y) (broadcast (SM a) (Scalar.ofBits .f32 0x3BA3D70A#32))))

theorem kMoved_apply (hs : (SM a).Slices ![0, 1] (SC a)) (hc : (SC a).ShapeCasts (SV a)) (c : Ideal .f32)
    (x1 y : FVec Ideal (SM a) .f32) (r : Fin a) :
    kMoved hs hc c x1 y (ix1 r) = x1 (ix2 r (1 : Fin 2)) + (c * y (ix2 r (1 : Fin 2))) * cDt :=
  secondColumn_apply hs hc _ r

/-- Four slopes combined: `(dt / 6) · (((k₁ + 2 k₂) + 2 k₃) + k₄)`. -/
def kCombine (k1 k2 k3 k4 : FVec Ideal (SM a) .f32) : FVec Ideal (SM a) .f32 :=
  mulf (broadcast (SM a) (Scalar.ofBits .f32 0x3A5A740E#32))
    (addf (addf (addf k1 (mulf (broadcast (SM a) (Scalar.ofBits .f32 0x40000000#32)) k2))
      (mulf (broadcast (SM a) (Scalar.ofBits .f32 0x40000000#32)) k3)) k4)

/-- The whole body: the initial slope from the states' own velocities, the four moved velocities along it,
    their slopes, combined. -/
def kBody (hs : (SM a).Slices ![0, 1] (SC a)) (hc : (SC a).ShapeCasts (SV a)) (hv : (SV a).ShapeCasts (SC a))
    (hcat : Shape.Concatenates [SC a, SC a] (SM a) 1) (x0 : FVec Ideal (SV a) .f32) (x1 : FVec Ideal (SM a) .f32) :
    FVec Ideal (SM a) .f32 :=
  kCombine (kSlope hv hcat x0 (kMoved hs hc (Scalar.ofBits .f32 0x00000000#32) x1 (kSlope hv hcat x0 (secondColumn hs hc x1))))
    (kSlope hv hcat x0 (kMoved hs hc (Scalar.ofBits .f32 0x3F000000#32) x1 (kSlope hv hcat x0 (secondColumn hs hc x1))))
    (kSlope hv hcat x0 (kMoved hs hc (Scalar.ofBits .f32 0x3F000000#32) x1 (kSlope hv hcat x0 (secondColumn hs hc x1))))
    (kSlope hv hcat x0 (kMoved hs hc (Scalar.ofBits .f32 0x3F800000#32) x1 (kSlope hv hcat x0 (secondColumn hs hc x1))))

/-- The velocity moved by `c · dt` along the initial slope, at a row, is the scalar `moved`. -/
theorem kMoved_initial_apply (hs : (SM a).Slices ![0, 1] (SC a)) (hc : (SC a).ShapeCasts (SV a))
    (hv : (SV a).ShapeCasts (SC a)) (hcat : Shape.Concatenates [SC a, SC a] (SM a) 1) (c : Ideal .f32)
    (x0 : FVec Ideal (SV a) .f32) (x1 : FVec Ideal (SM a) .f32) (r : Fin a) :
    kMoved hs hc c x1 (kSlope hv hcat x0 (secondColumn hs hc x1)) (ix1 r) = moved c (x0 (ix1 r)) (x1 (ix2 r (1 : Fin 2))) := by
  rw [kMoved_apply, kSlope_apply, if_neg (Fin.ne_of_val_ne Nat.one_ne_zero), secondColumn_apply]
  rfl

/-- THE BODY AT A ROW is the step of that row's input and velocity. -/
theorem kBody_eq (hs : (SM a).Slices ![0, 1] (SC a)) (hc : (SC a).ShapeCasts (SV a)) (hv : (SV a).ShapeCasts (SC a))
    (hcat : Shape.Concatenates [SC a, SC a] (SM a) 1) (x0 : FVec Ideal (SV a) .f32) (x1 : FVec Ideal (SM a) .f32) :
    kBody hs hc hv hcat x0 x1 = stepRows x0 x1 := by
  funext i
  obtain ⟨r, j, rfl⟩ : ∃ (r : Fin a) (j : Fin 2), i = ix2 r j := ⟨i 0, i 1, eq_ix2 i⟩
  rw [stepRows_apply]
  show cSixth * (((kSlope hv hcat x0 _ (ix2 r j) + cTwo * kSlope hv hcat x0 _ (ix2 r j))
    + cTwo * kSlope hv hcat x0 _ (ix2 r j)) + kSlope hv hcat x0 _ (ix2 r j)) = _
  simp only [kSlope_apply, kMoved_initial_apply]
  rfl

end Cert.Integrator

end
-- ==== Proof.KernelBlock.lean ====
/-
  What the kernel body leaves in its output buffer at any grid point: the integrator's step of the rows of the
  two input blocks.

  The body loads its whole input blocks — 262144 inputs, 262144 × 2 states —, computes, and stores one
  262144 × 2 value through the whole output buffer, so the buffer ends holding exactly that value. The
  value is the kernel's spelling of the step (`kBody`): the body's named intermediate values unfold to it, term for term.
-/
import proofs.«133290_j15599321219533_1_alg».proof.Proof.Gen.KernelIdeal.Frame
import Idealize.ShloMosaic.Lib.Pipeline.Value
import proofs.«133290_j15599321219533_1_alg».proof.Proof.KernelForm

set_option maxRecDepth 16384

noncomputable section

namespace Cert.KernelIdeal.StepValue

open Cert.KernelIdeal Cert.KernelIdeal.Gen Idealize.ShloMosaic Idealize.ShloMosaic.TcCoe Idealize.SL.Sem
open Cert.Integrator

/-- The accesses start at the origin of their buffers. -/
theorem origin1 : (![0] : Fin 1 → Nat) = fun _ => 0 := funext fun a => by fin_cases a <;> rfl
theorem origin2 : (![0, 0] : Fin 2 → Nat) = fun _ => 0 := funext fun a => by fin_cases a <;> rfl

/-- The value the body stores, from the two loaded blocks, is the kernel's spelling of the step. -/
theorem stored_eq_kBody (x0 : Vec Ideal S262144 .f32) (x1 : Vec Ideal S262144x2 .f32) :
    k0_pay1 (k0_pay7 (k0_pay3 x0 x1) (k0_pay4 x0 x1) (k0_pay5 x0 x1) (k0_pay6 (F := Ideal)))
        (k0_pay8 x0 x1 (k0_pay2 x0 x1)) (k0_pay11 (k0_pay9 x1 (k0_pay2 x0 x1)) (k0_pay10 x0 x1 (k0_pay2 x0 x1)))
        (k0_pay12 x0 x1 (k0_pay2 x0 x1)) (Scalar.ofBits .f32 0x40000000#32)
      = kBody (a := 262144) Facts₀.slices_S262144x2_o0_1_S262144x1 Facts₀.shapeCasts_S262144x1_S262144
          Facts₀.shapeCasts_S262144_S262144x1 Facts₀.concatenates_S262144x1_S262144x1_S262144x2_d1 x0 x1 := rfl

/-- THE OUTPUT BUFFER AFTER THE BODY holds the step of the rows of the input blocks. -/
theorem out_eq_stepRows (x0 : Vec Ideal S262144 .f32) (x1 : Vec Ideal S262144x2 .f32) :
    out0_2 (F := Ideal) x0 x1 = stepRows (a := 262144) x0 x1 := by
  unfold out0_2
  rw [View.canon_unit_zero origin2]
  simp only [View.ld_unit_zero (S := S262144) origin1, View.ld_unit_zero (S := S262144x2) origin2]
  exact (stored_eq_kBody x0 x1).trans (kBody_eq _ _ _ _ x0 x1)

end Cert.KernelIdeal.StepValue

end
-- ==== Proof.KernelArray.lean ====
/-
  The kernel's output array after the run: the integrator's step of the rows of the two argument arrays.

  The grid has 16 points. Point `t` reads rows `262144 t … 262144 t + 262143` of the inputs and of the states,
  and writes the same rows of the output. Row `r` of a block is row `262144 t + r` of its array, and the step
  of a row depends on that row alone, so what point `t` writes back is block `t` of the step of the whole
  arrays. The sixteen blocks tile the output (row `R` lies in the block of point `R / 262144`), so the output
  ends holding the step of the whole arrays.
-/
import proofs.«133290_j15599321219533_1_alg».proof.Proof.Gen.KernelIdeal.Value
import proofs.«133290_j15599321219533_1_alg».proof.Proof.KernelBlock

set_option maxRecDepth 16384

noncomputable section

namespace Cert.KernelIdeal.StepValue

open Cert.KernelIdeal Cert.KernelIdeal.Gen Idealize.ShloMosaic Idealize.ShloMosaic.TcCoe Idealize.SL.Sem
open Idealize.ShloMosaic.Pipeline (Dat)
open Idealize.ShloMosaic.ValueIdx Cert.Integrator

variable (m : (ℓ : Loc nD τ sig) → Buf (Elt Ideal) ℓ) (ρ : Dev nD → PrngReg)

/-- The step of all rows of the argument arrays as the region finds them. -/
abbrev whole (c : Dev nD) : S4194304x2.Idx → Elt Ideal .f32 :=
  stepRows (a := 4194304) (V m c main_arg0) (V m c main_arg1)

/-- The three windows' block indices at point `t`: the inputs' block `t`; the states' and the output's block
    `(t, 0)`. Decided over the sixteen points. -/
theorem block_indices : ∀ t : Fin cfg0.N, win0_0.index t (0 : Fin 1) = t.val
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem block_onto : ∀ q : Fin 16, ∃ t : Fin cfg0.N, win0_2.index t = ![q.val, 0] :=
  (by decide +kernel : ∀ q : Fin 16, ∃ t : Fin grid0.N, win0_2.index t = ![q.val, 0])

/-- WHAT POINT `t` WRITES BACK is block `t` of the step of the whole arrays. -/
theorem flushed_eq (c : Dev nD) (t : Fin cfg0.N) :
    (dats m 0 c).flushed 2 t = ((cfg0.win 2).blk t).view.read (Elt Ideal) (whole m c) := by
  rw [Value.flushed2]
  obtain ⟨e0, e1, e2, e3, e4⟩ := block_indices t
  funext y
  show out0_2 (F := Ideal) (iblk m c 0 t) (iblk m c 1 t) y = whole m c (((cfg0.win 2).blk t).view.emb y)
  refine (congrFun (out_eq_stepRows (iblk m c 0 t) (iblk m c 1 t)) y).trans ?_
  have hy0 : (y 0).val < 262144 := (y 0).isLt
  have hy1 : (y 1).val < 2 := (y 1).isLt
  -- the row of the arrays that row `y 0` of the blocks is
  have hu : ((cfg0.win 0).blk t).view.emb (ix1 (⟨(y 0).val, hy0⟩ : Fin 262144))
      = ix1 (⟨((((cfg0.win 2).blk t).view.emb y) 0).val, (((cfg0.win 2).blk t).view.emb y 0).isLt⟩ : Fin 4194304) := by
    funext a; apply Fin.ext
    match a with
    | ⟨0, _⟩ =>
      show win0_0.index t (0 : Fin 1) * 262144 + 1 * (y 0).val = win0_2.index t (0 : Fin 2) * 262144 + 1 * (y 0).val
      omega
  have hv : ((cfg0.win 1).blk t).view.emb (ix2 (⟨(y 0).val, hy0⟩ : Fin 262144) (1 : Fin 2))
      = ix2 (⟨((((cfg0.win 2).blk t).view.emb y) 0).val, (((cfg0.win 2).blk t).view.emb y 0).isLt⟩ : Fin 4194304) (1 : Fin 2) := by
    funext a; apply Fin.ext
    match a with
    | ⟨0, _⟩ =>
      show win0_1.index t (0 : Fin 2) * 262144 + 1 * (y 0).val = win0_2.index t (0 : Fin 2) * 262144 + 1 * (y 0).val
      omega
    | ⟨1, _⟩ =>
      show win0_1.index t (1 : Fin 2) * 2 + 1 * 1 = 1
      omega
  have hj : (⟨((((cfg0.win 2).blk t).view.emb y) 1).val, (((cfg0.win 2).blk t).view.emb y 1).isLt⟩ : Fin 2)
      = ⟨(y 1).val, hy1⟩ := by
    apply Fin.ext
    show win0_2.index t (1 : Fin 2) * 2 + 1 * (y 1).val = (y 1).val
    omega
  show step (V m c main_arg0 (((cfg0.win 0).blk t).view.emb (ix1 (⟨(y 0).val, hy0⟩ : Fin 262144))))
      (V m c main_arg1 (((cfg0.win 1).blk t).view.emb (ix2 (⟨(y 0).val, hy0⟩ : Fin 262144) (1 : Fin 2))))
      (⟨(y 1).val, hy1⟩ : Fin 2)
    = step (V m c main_arg0 (ix1 (⟨((((cfg0.win 2).blk t).view.emb y) 0).val, (((cfg0.win 2).blk t).view.emb y 0).isLt⟩ : Fin 4194304)))
      (V m c main_arg1 (ix2 (⟨((((cfg0.win 2).blk t).view.emb y) 0).val, (((cfg0.win 2).blk t).view.emb y 0).isLt⟩ : Fin 4194304) (1 : Fin 2)))
      (⟨((((cfg0.win 2).blk t).view.emb y) 1).val, (((cfg0.win 2).blk t).view.emb y 1).isLt⟩ : Fin 2)
  rw [hu, hv, hj]

/-- An index of the output is in point `t`'s block iff each coordinate is in the block's range on its axis. -/
theorem mem_block (t : Fin cfg0.N) (i : S4194304x2.Idx) :
    i ∈ ((cfg0.win 2).blk t).view.set ↔ ∀ a : Fin 2, win0_2.index t a * S262144x2.size a ≤ (i a).val
      ∧ (i a).val < win0_2.index t a * S262144x2.size a + S262144x2.size a := by
  show i ∈ ((View.whole main_v0).slice (win0_2.rect t)).set ↔ _
  rw [View.set_slice_whole, Rect.mem_set_unit]
  exact Iff.rfl

/-- THE BLOCKS TILE THE OUTPUT: row `R` lies in the block of point `R / 262144`. -/
theorem covered (i : S4194304x2.Idx) :
    ∃ t : Fin cfg0.N, (cfg0.win 2).flush t = true ∧ i ∈ ((cfg0.win 2).blk t).view.set := by
  have hi0 : (i 0).val < 4194304 := (i 0).isLt
  have hi1 : (i 1).val < 2 := (i 1).isLt
  obtain ⟨t, ht⟩ := block_onto ⟨(i 0).val / 262144, by omega⟩
  have q0 : win0_2.index t (0 : Fin 2) = (i 0).val / 262144 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 262144 ≤ (i 0).val ∧ (i 0).val < win0_2.index t (0 : Fin 2) * 262144 + 262144
    omega
  | ⟨1, _⟩ =>
    show win0_2.index t (1 : Fin 2) * 2 ≤ (i 1).val ∧ (i 1).val < win0_2.index t (1 : Fin 2) * 2 + 2
    omega

/-- THE OUTPUT ARRAY AFTER THE RUN is the step of the rows of the argument arrays as launched. -/
theorem final (c : Dev nD) : (dats m 0 c).arrAt 2 cfg0.N
    = stepRows (a := 4194304) (m ((c : Thread nD τ).loc main_arg0)) (m ((c : Thread nD τ).loc main_arg1)) :=
  (dats m 0 c).arrAt_eq_of_cover 2 (whole m c) (fun t _ => flushed_eq m c t) covered

/-- The kernel's run: every weakly fair execution terminates with the output at the step of the rows of the
    arguments, the arguments unchanged. -/
theorem run : θ_run defs (onTc (τ := τ) (main (F := Ideal))) ⟨m, fun _ => 0, ρ⟩ fun r => ∀ c : Dev nD,
      r.2.mem ((c : Thread nD τ).loc main_v0)
        = stepRows (a := 4194304) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.StepValue

end
-- ==== Proof.HostForm.lean ====
/-
  The reference's arithmetic as whole-array functions over `a` instances, each read at a row.

  The reference computes on all instances at once, the inputs a vector `[a]`, the states `[a, 2]`. It spells
  the same five pieces as the kernel body in the host's vocabulary: a scalar constant spread over a shape
  (`hConst`), the velocity column as a vector (`secondColumn`, the very function the kernel uses), the acceleration
  with the host's own `sign` and quotient (`hAcc`), a slope as two columns joined — each column a vector
  laid out along the rows — (`hSlope`), the states moved along a slope (`hMoved`), and the weighted
  combination (`hCombine`). At a row each is the corresponding scalar function of `Spec`, by unfolding: the
  host's `sign` is the sign of an extended real and its quotient the extended reals' quotient.
-/
import Idealize.ShloMosaic.PureOps.Ideal.Laws
import Idealize.ShloMosaic.Lib.Pipeline.Value
import Idealize.ShloMosaic.Lib.ValueIdx
import proofs.«133290_j15599321219533_1_alg».proof.Proof.Spec
import proofs.«133290_j15599321219533_1_alg».proof.Proof.LibColumns

noncomputable section

namespace Cert.Integrator

open Idealize.ShloMosaic Idealize.ShloMosaic.ValueIdx
open Cert.LibColumns (secondColumn secondColumn_apply)

variable {a : ℕ}

/-- The shape of a scalar. -/
abbrev S0 : Shape := ⟨0, ![]⟩

/-- A scalar constant spread over a shape. -/
def hConst (s : Shape) (hb : S0.BroadcastsInDim s ![]) (b : BitVec 32) : FVec Ideal s .f32 :=
  broadcastInDim s ![] hb (constant (F := Ideal) S0 .f32 b)

theorem hConst_apply (s : Shape) (hb : S0.BroadcastsInDim s ![]) (b : BitVec 32) (i : s.Idx) :
    hConst s hb b i = Ideal.ofBits .f32 b := rfl

/-- The acceleration of each instance, from the inputs `u` and the velocities `w`. -/
def hAcc (hb : S0.BroadcastsInDim (SV a) ![]) (u w : FVec Ideal (SV a) .f32) : FVec Ideal (SV a) .f32 :=
  Host.divf (F := Ideal) (addf (subf (subf u (mulf (hConst (SV a) hb 0x4356ED15#32) w))
        (mulf (hConst (SV a) hb 0x419AE2B7#32) (Host.sign (F := Ideal) w)))
      (hConst (SV a) hb 0x405292A3#32))
    (hConst (SV a) hb 0x42BEE666#32)

theorem hAcc_apply (hb : S0.BroadcastsInDim (SV a) ![]) (u w : FVec Ideal (SV a) .f32) (i : (SV a).Idx) :
    hAcc hb u w i = acc (u i) (w i) := rfl

/-- A slope: the velocities `w` and their accelerations, side by side. -/
def hSlope (hb : S0.BroadcastsInDim (SV a) ![]) (hbc : (SV a).BroadcastsInDim (SC a) ![0])
    (hcat : Shape.Concatenates [SC a, SC a] (SM a) 1) (u w : FVec Ideal (SV a) .f32) : FVec Ideal (SM a) .f32 :=
  concatenate (SM a) 1 [⟨SC a, broadcastInDim (SC a) ![0] hbc w⟩, ⟨SC a, broadcastInDim (SC a) ![0] hbc (hAcc hb u w)⟩] hcat

theorem hSlope_apply (hb : S0.BroadcastsInDim (SV a) ![]) (hbc : (SV a).BroadcastsInDim (SC a) ![0])
    (hcat : Shape.Concatenates [SC a, SC a] (SM a) 1) (u w : FVec Ideal (SV a) .f32) (r : Fin a) (j : Fin 2) :
    hSlope hb hbc hcat u w (ix2 r j) = if j = 0 then w (ix1 r) else acc (u (ix1 r)) (w (ix1 r)) := by
  refine (LibColumns.concat_cols_apply _ _ hcat r j).trans ?_
  rw [LibColumns.broadcastInDim_a_a1_apply w hbc r 0, LibColumns.broadcastInDim_a_a1_apply (hAcc hb u w) hbc r 0,
    hAcc_apply]

/-- The states moved along the slope `y` by `c · dt`, velocity column. -/
def hMoved (hs : (SM a).Slices ![0, 1] (SC a)) (hc : (SC a).ShapeCasts (SV a)) (hb2 : S0.BroadcastsInDim (SM a) ![])
    (c : BitVec 32) (x1 y : FVec Ideal (SM a) .f32) : FVec Ideal (SV a) .f32 :=
  secondColumn hs hc (addf x1 (mulf (mulf (hConst (SM a) hb2 c) y) (hConst (SM a) hb2 0x3BA3D70A#32)))

theorem hMoved_apply (hs : (SM a).Slices ![0, 1] (SC a)) (hc : (SC a).ShapeCasts (SV a))
    (hb2 : S0.BroadcastsInDim (SM a) ![]) (c : BitVec 32) (x1 y : FVec Ideal (SM a) .f32) (r : Fin a) :
    hMoved hs hc hb2 c x1 y (ix1 r)
      = x1 (ix2 r (1 : Fin 2)) + (Ideal.ofBits .f32 c * y (ix2 r (1 : Fin 2))) * cDt :=
  secondColumn_apply hs hc _ r

/-- Four slopes combined: `(dt / 6) · (((k₁ + 2 k₂) + 2 k₃) + k₄)`. -/
def hCombine (hb2 : S0.BroadcastsInDim (SM a) ![]) (k1 k2 k3 k4 : FVec Ideal (SM a) .f32) : FVec Ideal (SM a) .f32 :=
  mulf (hConst (SM a) hb2 0x3A5A740E#32)
    (addf (addf (addf k1 (mulf (hConst (SM a) hb2 0x40000000#32) k2)) (mulf (hConst (SM a) hb2 0x40000000#32) k3)) k4)

/-- The velocity moved by `c · dt` along the initial slope, at a row, is the scalar `moved`. -/
theorem hMoved_initial_apply (hs : (SM a).Slices ![0, 1] (SC a)) (hc : (SC a).ShapeCasts (SV a))
    (hb : S0.BroadcastsInDim (SV a) ![]) (hb2 : S0.BroadcastsInDim (SM a) ![])
    (hbc : (SV a).BroadcastsInDim (SC a) ![0]) (hcat : Shape.Concatenates [SC a, SC a] (SM a) 1) (c : BitVec 32)
    (x0 : FVec Ideal (SV a) .f32) (x1 : FVec Ideal (SM a) .f32) (r : Fin a) :
    hMoved hs hc hb2 c x1 (hSlope hb hbc hcat x0 (secondColumn hs hc x1)) (ix1 r)
      = moved (Ideal.ofBits .f32 c) (x0 (ix1 r)) (x1 (ix2 r (1 : Fin 2))) := by
  rw [hMoved_apply, hSlope_apply, if_neg (Fin.ne_of_val_ne Nat.one_ne_zero), secondColumn_apply]
  rfl

/-- The whole reference: the initial slope from the states' own velocities, the four moved velocities along
    it, their slopes, combined. -/
def hBody (hs : (SM a).Slices ![0, 1] (SC a)) (hc : (SC a).ShapeCasts (SV a)) (hb : S0.BroadcastsInDim (SV a) ![])
    (hb2 : S0.BroadcastsInDim (SM a) ![]) (hbc : (SV a).BroadcastsInDim (SC a) ![0])
    (hcat : Shape.Concatenates [SC a, SC a] (SM a) 1) (x0 : FVec Ideal (SV a) .f32) (x1 : FVec Ideal (SM a) .f32) :
    FVec Ideal (SM a) .f32 :=
  hCombine hb2
    (hSlope hb hbc hcat x0 (hMoved hs hc hb2 0x00000000#32 x1 (hSlope hb hbc hcat x0 (secondColumn hs hc x1))))
    (hSlope hb hbc hcat x0 (hMoved hs hc hb2 0x3F000000#32 x1 (hSlope hb hbc hcat x0 (secondColumn hs hc x1))))
    (hSlope hb hbc hcat x0 (hMoved hs hc hb2 0x3F000000#32 x1 (hSlope hb hbc hcat x0 (secondColumn hs hc x1))))
    (hSlope hb hbc hcat x0 (hMoved hs hc hb2 0x3F800000#32 x1 (hSlope hb hbc hcat x0 (secondColumn hs hc x1))))

/-- THE REFERENCE AT A ROW is the step of that row's input and velocity. -/
theorem hBody_eq (hs : (SM a).Slices ![0, 1] (SC a)) (hc : (SC a).ShapeCasts (SV a)) (hb : S0.BroadcastsInDim (SV a) ![])
    (hb2 : S0.BroadcastsInDim (SM a) ![]) (hbc : (SV a).BroadcastsInDim (SC a) ![0])
    (hcat : Shape.Concatenates [SC a, SC a] (SM a) 1) (x0 : FVec Ideal (SV a) .f32) (x1 : FVec Ideal (SM a) .f32) :
    hBody hs hc hb hb2 hbc hcat x0 x1 = stepRows x0 x1 := by
  funext i
  obtain ⟨r, j, rfl⟩ : ∃ (r : Fin a) (j : Fin 2), i = ix2 r j := ⟨i 0, i 1, eq_ix2 i⟩
  rw [stepRows_apply]
  show cSixth * (((hSlope hb hbc hcat x0 _ (ix2 r j) + cTwo * hSlope hb hbc hcat x0 _ (ix2 r j))
    + cTwo * hSlope hb hbc hcat x0 _ (ix2 r j)) + hSlope hb hbc hcat x0 _ (ix2 r j)) = _
  simp only [hSlope_apply, hMoved_initial_apply]
  rfl

end Cert.Integrator

end
-- ==== Proof.RefValue.lean ====
/-
  The reference's result, as a function of its two argument arrays, is the integrator's step of their rows.

  The reference's operations, composed, are the host's spelling of the step (`hBody`) over all 4194304
  instances: the stages unfold to it, term for term.
-/
import proofs.«133290_j15599321219533_1_alg».proof.Proof.Gen.ReferenceIdeal.Read
import proofs.«133290_j15599321219533_1_alg».proof.Proof.HostForm

set_option maxRecDepth 16384

noncomputable section

namespace Cert.ReferenceIdeal.StepValue

open Cert.ReferenceIdeal Cert.ReferenceIdeal.Gen Cert.ReferenceIdeal.Read Idealize.ShloMosaic Idealize.ShloMosaic.TcCoe
open Idealize.SL.Sem Cert.Integrator

/-- The last stage is the host's spelling of the step. -/
theorem last_eq_hBody (x0 : FVec Ideal S4194304 .f32) (x1 : FVec Ideal S4194304x2 .f32) :
    val_main_v108 (F := Ideal) x0 x1
      = hBody (a := 4194304) Facts₀.slices_S4194304x2_S4194304x1_0_1 Facts₀.shapeCasts_S4194304x1_S4194304
          Facts₀.bcast_S_S4194304 Facts₀.bcast_S_S4194304x2 Facts₀.bcast_S4194304_S4194304x1_0
          Facts₀.concatenates_S4194304x1_S4194304x1_S4194304x2_d1 x0 x1 := rfl

/-- THE REFERENCE'S RESULT is the step of the rows of its arguments. -/
theorem result_eq_stepRows (x0 : FVec Ideal S4194304 .f32) (x1 : FVec Ideal S4194304x2 .f32) :
    val_main_v108 (F := Ideal) x0 x1 = stepRows (a := 4194304) x0 x1 :=
  (last_eq_hBody x0 x1).trans (hBody_eq _ _ _ _ _ _ x0 x1)

end Cert.ReferenceIdeal.StepValue

end
-- ==== Proof.lean ====
/-
  One step of a fixed-step integrator for 4194304 independent instances of a mass under viscous and Coulomb
  friction: the kernel against its array-language reference, on the extended reals.

  Each instance has an input `u` and a state `(position, velocity)`. With
      acc u x = (u − F_v · x − F_c · sign x + offset) / M
  the slope at a state `y` is `(y₁, acc u y₁)`; the step evaluates it at the state moved along the INITIAL
  slope by `a · dt` for `a = 0, ½, ½, 1` and returns `(dt / 6) · (k₁ + 2 k₂ + 2 k₃ + k₄)`. Only the velocity is
  read. The kernel walks the instances in sixteen blocks of 262144 rows; the reference handles all rows at once.

  Both programs carry the same constants, by the same 32-bit patterns, and apply the same operations in the same
  order and grouping. They differ in layout — the kernel flattens and re-joins columns by reshapes, the
  reference by broadcasts along the rows — and in the sign: the kernel selects `−1` or `1` by `x < 0` where
  `|x| > 0` and returns `x` itself elsewhere, the reference applies the sign function. On every extended real
  these are one function (at zero the selection returns zero; at the infinities `∓1`), so the two results are
  equal index by index, with no use of the inputs' finiteness:
    * `Spec`        the step of one instance, and of `a` instances row by row;
    * `KernelForm`  the kernel's spelling of the step, at a row, is the step;
    * `HostForm`    the reference's spelling, at a row, is the step;
    * `KernelBlock` what the kernel body leaves in its output buffer is the step of its input blocks' rows;
    * `KernelArray` so the output array ends at the step of the argument arrays' rows (the sixteen blocks tile it);
    * `RefValue`    and the reference's result is the same function of its arguments.
  The kernel's sign reads a sign bit in the printed program; its five sites are idealized to the comparison
  `x < 0`, each by the same rule at the same shape (`preserves`).
-/
import proofs.«133290_j15599321219533_1_alg».proof.Defs
import proofs.«133290_j15599321219533_1_alg».proof.Proof.Gen.Kernel
import proofs.«133290_j15599321219533_1_alg».proof.Proof.Gen.Kernel.Skeleton
import proofs.«133290_j15599321219533_1_alg».proof.Proof.Gen.Kernel.Launch
import proofs.«133290_j15599321219533_1_alg».proof.Proof.Gen.Kernel.Points
import proofs.«133290_j15599321219533_1_alg».proof.Proof.Gen.Kernel.Frame
import proofs.«133290_j15599321219533_1_alg».proof.Proof.Gen.KernelIdeal
import proofs.«133290_j15599321219533_1_alg».proof.Proof.Gen.KernelIdeal.Skeleton
import proofs.«133290_j15599321219533_1_alg».proof.Proof.Gen.KernelIdeal.Launch
import proofs.«133290_j15599321219533_1_alg».proof.Proof.Gen.KernelIdeal.Points
import proofs.«133290_j15599321219533_1_alg».proof.Proof.Gen.KernelIdeal.Frame
import proofs.«133290_j15599321219533_1_alg».proof.Proof.Gen.ReferenceIdeal
import proofs.«133290_j15599321219533_1_alg».proof.Proof.Gen.Pre_finite_inputs
import proofs.«133290_j15599321219533_1_alg».proof.Proof.Gen.KernelIdeal.Value
import proofs.«133290_j15599321219533_1_alg».proof.Proof.Gen.ReferenceIdeal.Run
import proofs.«133290_j15599321219533_1_alg».proof.Proof.Gen.ReferenceIdeal.Read
import proofs.«133290_j15599321219533_1_alg».proof.Proof.KernelArray
import proofs.«133290_j15599321219533_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The five places where the kernel builds `±1` from a sign bit, one per evaluation of the slope, each
    idealized to the selection by `x < 0`: the same rule at the same shape and format five times. -/
theorem preserves : Cert.preserves_Kernel_KernelIdeal :=
  ⟨IdealRules.sign_bit.statement Cert.KernelIdeal.S262144 .f32, IdealRules.sign_bit.statement Cert.KernelIdeal.S262144 .f32,
    IdealRules.sign_bit.statement Cert.KernelIdeal.S262144 .f32, IdealRules.sign_bit.statement Cert.KernelIdeal.S262144 .f32,
    IdealRules.sign_bit.statement Cert.KernelIdeal.S262144 .f32⟩

/-- From memories that agree on the inputs and the states, the kernel's output array and the reference's
    result both end at the step of the rows of those arguments. -/
theorem algebraic : Cert.algebraic_KernelIdeal_ReferenceIdeal := by
  intro m ρ m' ρ' _ hagree
  refine ⟨_, Cert.KernelIdeal.StepValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, Cert.ReferenceIdeal.StepValue.result_eq_stepRows, (hagree c).1,
    (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
